-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128x64 .f32) (main_arg6 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 97
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1600000, .f32⟩
  | .hbm, ⟨15, _⟩ => ⟨S1600000, .f32⟩
  | .hbm, ⟨16, _⟩ => ⟨S_, .f32⟩
  | .hbm, ⟨17, _⟩ => ⟨S1600000, .f32⟩
  | .hbm, ⟨18, _⟩ => ⟨S1600000, .f32⟩
  | .hbm, ⟨19, _⟩ => ⟨S_, .f32⟩
  | .hbm, ⟨20, _⟩ => ⟨S1600000, .f32⟩
  | .hbm, ⟨21, _⟩ => ⟨S1600000, .f32⟩
  | .hbm, ⟨22, _⟩ => ⟨S_, .f32⟩
  | .hbm, ⟨23, _⟩ => ⟨S100000, .f32⟩
  | .hbm, ⟨24, _⟩ => ⟨S1700000, .f32⟩
  | .hbm, ⟨25, _⟩ => ⟨S_, .f32⟩
  | .hbm, ⟨26, _⟩ => ⟨S100000, .f32⟩
  | .hbm, ⟨27, _⟩ => ⟨S1700000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .i1⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000, .f32⟩
  | .hbm, ⟨58, _⟩ => ⟨S1700000, .f32⟩
  | .hbm, ⟨59, _⟩ => ⟨S100000x128, .f32⟩
  | .hbm, ⟨60, _⟩ => ⟨S1700000x1, .f32⟩
  | .hbm, ⟨61, _⟩ => ⟨S_, .i32⟩
  | .hbm, ⟨62, _⟩ => ⟨S1700000, .i32⟩
  | .hbm, ⟨63, _⟩ => ⟨S1700000, .i1⟩
  | .hbm, ⟨64, _⟩ => ⟨S_, .i32⟩
  | .hbm, ⟨65, _⟩ => ⟨S1700000, .i32⟩
  | .hbm, ⟨66, _⟩ => ⟨S1700000, .i32⟩
  | .hbm, ⟨67, _⟩ => ⟨S1700000, .i32⟩
  | .hbm, ⟨68, _⟩ => ⟨S1700000x1, .i32⟩
  | .hbm, ⟨69, _⟩ => ⟨S1700000x128, .f32⟩
  | .hbm, ⟨70, _⟩ => ⟨S1700000x128, .f32⟩
  | .hbm, ⟨71, _⟩ => ⟨S1700000x128, .f32⟩
  | .hbm, ⟨72, _⟩ => ⟨S_, .f32⟩
  | .hbm, ⟨73, _⟩ => ⟨S100000x128, .f32⟩
  | .hbm, ⟨74, _⟩ => ⟨S1700000x1, .i32⟩
  | .hbm, ⟨75, _⟩ => ⟨S100000x128, .f32⟩
  | .hbm, ⟨76, _⟩ => ⟨S1x128, .f32⟩
  | .hbm, ⟨77, _⟩ => ⟨S100000x128, .f32⟩
  | .hbm, ⟨78, _⟩ => ⟨S100000x64, .f32⟩
  | .hbm, ⟨79, _⟩ => ⟨S1700000x1, .f32⟩
  | .hbm, ⟨80, _⟩ => ⟨S_, .i32⟩
  | .hbm, ⟨81, _⟩ => ⟨S1700000, .i32⟩
  | .hbm, ⟨82, _⟩ => ⟨S1700000, .i1⟩
  | .hbm, ⟨83, _⟩ => ⟨S_, .i32⟩
  | .hbm, ⟨84, _⟩ => ⟨S1700000, .i32⟩
  | .hbm, ⟨85, _⟩ => ⟨S1700000, .i32⟩
  | .hbm, ⟨86, _⟩ => ⟨S1700000, .i32⟩
  | .hbm, ⟨87, _⟩ => ⟨S1700000x1, .i32⟩
  | .hbm, ⟨88, _⟩ => ⟨S1700000x64, .f32⟩
  | .hbm, ⟨89, _⟩ => ⟨S1700000x64, .f32⟩
  | .hbm, ⟨90, _⟩ => ⟨S1700000x64, .f32⟩
  | .hbm, ⟨91, _⟩ => ⟨S_, .f32⟩
  | .hbm, ⟨92, _⟩ => ⟨S100000x64, .f32⟩
  | .hbm, ⟨93, _⟩ => ⟨S1700000x1, .i32⟩
  | .hbm, ⟨94, _⟩ => ⟨S100000x64, .f32⟩
  | .hbm, ⟨95, _⟩ => ⟨S1x64, .f32⟩
  | .hbm, ⟨96, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_call0_v0 : Ref sig .tc := ⟨.hbm, 36, rfl⟩
abbrev main_call0_v1 : Ref sig .tc := ⟨.hbm, 37, rfl⟩
abbrev main_v22 : Ref sig .tc := ⟨.hbm, 38, rfl⟩
abbrev main_c : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_7 : Ref sig .tc := ⟨.hbm, 49, rfl⟩
abbrev main_v31 : Ref sig .tc := ⟨.hbm, 50, rfl⟩
abbrev main_v32 : Ref sig .tc := ⟨.hbm, 51, rfl⟩
abbrev main_c_8 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_9 : Ref sig .tc := ⟨.hbm, 61, rfl⟩
abbrev main_v41 : Ref sig .tc := ⟨.hbm, 62, rfl⟩
abbrev main_v42 : Ref sig .tc := ⟨.hbm, 63, rfl⟩
abbrev main_c_10 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_11 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_12 : Ref sig .tc := ⟨.hbm, 80, rfl⟩
abbrev main_v57 : Ref sig .tc := ⟨.hbm, 81, rfl⟩
abbrev main_v58 : Ref sig .tc := ⟨.hbm, 82, rfl⟩
abbrev main_c_13 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_14 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v39) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v52) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v54) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v54) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v55) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v68) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v69) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v70) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 136
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128, .f32⟩
  | 5 => ⟨S128x64, .f32⟩
  | 6 => ⟨S64, .f32⟩
  | 7 => ⟨S100000, .i32⟩
  | 8 => ⟨S1x1600000, .i32⟩
  | 9 => ⟨S1600000, .i32⟩
  | 10 => ⟨S1700000, .i32⟩
  | 11 => ⟨S1x1600000, .i32⟩
  | 12 => ⟨S1600000, .i32⟩
  | 13 => ⟨S1700000, .i32⟩
  | 14 => ⟨S1600000, .f32⟩
  | 15 => ⟨S1600000, .f32⟩
  | 16 => ⟨S_, .f32⟩
  | 17 => ⟨S1600000, .f32⟩
  | 18 => ⟨S1600000, .f32⟩
  | 19 => ⟨S_, .f32⟩
  | 20 => ⟨S1600000, .f32⟩
  | 21 => ⟨S1600000, .f32⟩
  | 22 => ⟨S_, .f32⟩
  | 23 => ⟨S100000, .f32⟩
  | 24 => ⟨S1700000, .f32⟩
  | 25 => ⟨S_, .f32⟩
  | 26 => ⟨S100000, .f32⟩
  | 27 => ⟨S1700000x1, .i32⟩
  | 28 => ⟨S100000, .f32⟩
  | 29 => ⟨S_, .f32⟩
  | 30 => ⟨S100000, .f32⟩
  | 31 => ⟨S100000, .i1⟩
  | 32 => ⟨S_, .f32⟩
  | 33 => ⟨S100000, .f32⟩
  | 34 => ⟨S100000, .f32⟩
  | 35 => ⟨S_, .f32⟩
  | 36 => ⟨S_, .f32⟩
  | 37 => ⟨S100000, .f32⟩
  | 38 => ⟨S100000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000, .f32⟩
  | 58 => ⟨S1700000, .f32⟩
  | 59 => ⟨S100000x128, .f32⟩
  | 60 => ⟨S1700000x1, .f32⟩
  | 61 => ⟨S_, .i32⟩
  | 62 => ⟨S1700000, .i32⟩
  | 63 => ⟨S1700000, .i1⟩
  | 64 => ⟨S_, .i32⟩
  | 65 => ⟨S1700000, .i32⟩
  | 66 => ⟨S1700000, .i32⟩
  | 67 => ⟨S1700000, .i32⟩
  | 68 => ⟨S1700000x1, .i32⟩
  | 69 => ⟨S1700000x128, .f32⟩
  | 70 => ⟨S1700000x128, .f32⟩
  | 71 => ⟨S1700000x128, .f32⟩
  | 72 => ⟨S_, .f32⟩
  | 73 => ⟨S100000x128, .f32⟩
  | 74 => ⟨S1700000x1, .i32⟩
  | 75 => ⟨S100000x128, .f32⟩
  | 76 => ⟨S1x128, .f32⟩
  | 77 => ⟨S100000x128, .f32⟩
  | 78 => ⟨S100000x128, .f32⟩
  | 79 => ⟨S_, .f32⟩
  | 80 => ⟨S100000x128, .f32⟩
  | 81 => ⟨S100000x128, .f32⟩
  | 82 => ⟨S_, .f32⟩
  | 83 => ⟨S100000, .f32⟩
  | 84 => ⟨S1700000x1, .i32⟩
  | 85 => ⟨S100000, .f32⟩
  | 86 => ⟨S_, .f32⟩
  | 87 => ⟨S100000, .f32⟩
  | 88 => ⟨S100000, .i1⟩
  | 89 => ⟨S_, .f32⟩
  | 90 => ⟨S100000, .f32⟩
  | 91 => ⟨S100000, .f32⟩
  | 92 => ⟨S_, .f32⟩
  | 93 => ⟨S_, .f32⟩
  | 94 => ⟨S100000, .f32⟩
  | 95 => ⟨S100000, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000, .f32⟩
  | 105 => ⟨S1700000, .f32⟩
  | 106 => ⟨S_, .i32⟩
  | 107 => ⟨S1700000, .i32⟩
  | 108 => ⟨S1700000, .i1⟩
  | 109 => ⟨S_, .i32⟩
  | 110 => ⟨S1700000, .i32⟩
  | 111 => ⟨S1700000, .i32⟩
  | 112 => ⟨S1700000, .i32⟩
  | 113 => ⟨S1700000x1, .i32⟩
  | 114 => ⟨S1700000, .f32⟩
  | 115 => ⟨S1700000, .f32⟩
  | 116 => ⟨S100000x64, .f32⟩
  | 117 => ⟨S1700000x1, .f32⟩
  | 118 => ⟨S_, .i32⟩
  | 119 => ⟨S1700000, .i32⟩
  | 120 => ⟨S1700000, .i1⟩
  | 121 => ⟨S_, .i32⟩
  | 122 => ⟨S1700000, .i32⟩
  | 123 => ⟨S1700000, .i32⟩
  | 124 => ⟨S1700000, .i32⟩
  | 125 => ⟨S1700000x1, .i32⟩
  | 126 => ⟨S1700000x64, .f32⟩
  | 127 => ⟨S1700000x64, .f32⟩
  | _ => ⟨S100000x128, .f32⟩

abbrev hbmTy0_1 (i : Nat) : BufTy := match i % 128 with
  | 0 => ⟨S1700000x64, .f32⟩
  | 1 => ⟨S_, .f32⟩
  | 2 => ⟨S100000x64, .f32⟩
  | 3 => ⟨S1700000x1, .i32⟩
  | 4 => ⟨S100000x64, .f32⟩
  | 5 => ⟨S1x64, .f32⟩
  | 6 => ⟨S100000x64, .f32⟩
  | 7 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_call0_v0 : Ref sig .tc := ⟨.hbm, 36, rfl⟩
abbrev main_call0_v1 : Ref sig .tc := ⟨.hbm, 37, rfl⟩
abbrev main_v22 : Ref sig .tc := ⟨.hbm, 38, rfl⟩
abbrev main_c : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_7 : Ref sig .tc := ⟨.hbm, 49, rfl⟩
abbrev main_v31 : Ref sig .tc := ⟨.hbm, 50, rfl⟩
abbrev main_v32 : Ref sig .tc := ⟨.hbm, 51, rfl⟩
abbrev main_c_8 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_9 : Ref sig .tc := ⟨.hbm, 61, rfl⟩
abbrev main_v41 : Ref sig .tc := ⟨.hbm, 62, rfl⟩
abbrev main_v42 : Ref sig .tc := ⟨.hbm, 63, rfl⟩
abbrev main_c_10 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_11 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call1_cst : Ref sig .tc := ⟨.hbm, 79, rfl⟩
abbrev main_call1_v0 : Ref sig .tc := ⟨.hbm, 80, rfl⟩
abbrev main_v56 : Ref sig .tc := ⟨.hbm, 81, rfl⟩
abbrev main_cst_12 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_13 : Ref sig .tc := ⟨.hbm, 86, rfl⟩
abbrev main_v60 : Ref sig .tc := ⟨.hbm, 87, rfl⟩
abbrev main_v61 : Ref sig .tc := ⟨.hbm, 88, rfl⟩
abbrev main_cst_14 : Ref sig .tc := ⟨.hbm, 89, rfl⟩
abbrev main_v62 : Ref sig .tc := ⟨.hbm, 90, rfl⟩
abbrev main_v63 : Ref sig .tc := ⟨.hbm, 91, rfl⟩
abbrev main_cst_15 : Ref sig .tc := ⟨.hbm, 92, rfl⟩
abbrev main_call2_v0 : Ref sig .tc := ⟨.hbm, 93, rfl⟩
abbrev main_call2_v1 : Ref sig .tc := ⟨.hbm, 94, rfl⟩
abbrev main_v64 : Ref sig .tc := ⟨.hbm, 95, rfl⟩
abbrev main_c_16 : Ref sig .tc := ⟨.hbm, 96, rfl⟩
abbrev main_v65 : Ref sig .tc := ⟨.hbm, 97, rfl⟩
abbrev main_v66 : Ref sig .tc := ⟨.hbm, 98, rfl⟩
abbrev main_c_17 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_c_18 : Ref sig .tc := ⟨.hbm, 106, rfl⟩
abbrev main_v73 : Ref sig .tc := ⟨.hbm, 107, rfl⟩
abbrev main_v74 : Ref sig .tc := ⟨.hbm, 108, rfl⟩
abbrev main_c_19 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_c_20 : Ref sig .tc := ⟨.hbm, 118, rfl⟩
abbrev main_v83 : Ref sig .tc := ⟨.hbm, 119, rfl⟩
abbrev main_v84 : Ref sig .tc := ⟨.hbm, 120, rfl⟩
abbrev main_c_21 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_22 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The kernel program's run, with its result kept.

  The program is four grid regions among stretches of host lines. From any memory with zero counters every weakly
  fair execution terminates without a fault, and the final state holds, at every buffer that outlives a region, the
  last boundary's contents `W9`: the fold of the host stretches and of the four regions' write-backs over the launch
  memory. The final state is read here at the result buffer `main_v70` — the last region's output array, which a
  claim about values needs — as well as at the seven argument buffers, which no host line and no region writes.
-/
import proofs.«105898_j29351806501599_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault; the result buffer ends at the
    last boundary's contents of it, and the seven arguments end as launched. -/
theorem run_result : θ_run defs (onTc (τ := τ) (main (F := F))) ⟨m, fun _ => 0, ρ⟩ (fun r => ∀ c : Dev nD,
      r.2.mem ((c.tc : Thread nD τ).loc main_v70) = W9 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v70 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.KernelIdeal.RunValue

end
-- ==== Proof.LibTypedRefCast.lean ====
/-
  Typed references of a called function's values: the transport of contents to the buffer's own type and back.

  A typed reference carries a buffer together with the fact that the buffer's type is the value's type; contents at
  the value's type are moved to the buffer's type along that fact (`toBuf`) and back (`ofBuf`). Moving there and
  back is the identity (`ofBuf_toBuf`): the two transports are along an equation and its inverse. Stated with the
  buffer and the three facts as separate variables, so that a rewrite finds every literal reference's round trip.
-/
import Idealize.ShloMosaic.Lib.StableHlo

namespace Idealize.ShloMosaic.StableHlo.TRefCast

open Idealize.ShloMosaic Idealize.ShloMosaic.StableHlo

/-- Contents moved to a buffer's own type and back are the contents. -/
theorem ofBuf_toBuf {sig : RefSig} {Val : EltTy → Type} {T : BufTy} (r : Ref sig .tc) (h1 : r.ty = T) (h2 : r.space ≠ .host)
    (h3 : r.isScoped = false) (v : T.Contents Val) :
    (TRef.of r h1 h2 h3).ofBuf ((TRef.of r h1 h2 h3).toBuf v) = v := by
  subst h1; rfl

end Idealize.ShloMosaic.StableHlo.TRefCast
-- ==== Proof.HostStages.lean ====
/-
  The kernel program's host lines, read against the reference's stages.

  Between its four grid regions the kernel program runs the same host lines as the reference: the edge list with the
  self loops appended (`row`, `col`), the edge weights (the logistic of `P_vec`, then ones for the loops), the degree
  normalisation `norm = dinv[row] · w · dinv[col]`, and, once per layer, the aggregation "gather the rows of `h` at
  `row`, scale by `norm`, scatter-add at `col`". Here each stretch of host lines is read back as a function of the
  buffers it starts from, and named by the reference's own stage for the same value. No operation is opened: the
  two programs apply the same operations to the same operands, so the terms agree as they stand.

  Only the first eighteen lines (`row`, `col`, the weights) are read from the launch memory. Every later line is
  read from an ARBITRARY valuation `V` of the buffers, given what `V` holds at the buffers the lines read; the
  regions' outputs enter as such hypotheses.
-/
import proofs.«105898_j29351806501599_1_alg».proof.Proof.Gen.KernelIdeal.Frame
import proofs.«105898_j29351806501599_1_alg».proof.Proof.Gen.ReferenceIdeal.Read
import proofs.«105898_j29351806501599_1_alg».proof.Proof.LibTypedRefCast

set_option maxRecDepth 16384

noncomputable section

namespace Cert.KernelIdeal.HostStages

open Cert.KernelIdeal Cert.KernelIdeal.Gen
open Idealize.ShloMosaic Idealize.ShloMosaic.TcCoe Idealize.SL.Sem Idealize.ShloMosaic.StableHlo
open Idealize.ShloMosaic.StableHlo.TRefCast (ofBuf_toBuf)
open Cert.ReferenceIdeal.Read (val_main_v3 val_main_v6 val_main_v14 val_main_v22 val_main_v38 val_main_v39 val_main_v52
  val_main_v56 val_main_v81 val_main_v94)

/-- Host lines run one list after another are the concatenated list run once. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

/-- The first stretch's first eighteen lines: up to the edge weights. -/
abbrev edgeLines : List (HloOp τ sig (Elt Ideal)) := (hostOps0 (F := Ideal)).take 18
/-- The rest of the first stretch: the degrees and their power -1/2. -/
abbrev degreeLines : List (HloOp τ sig (Elt Ideal)) := (hostOps0 (F := Ideal)).drop 18

/-! ## `row`, `col` and the edge weights, from the launch memory -/

section Launch

variable (m : (ℓ : Loc nD τ sig) → Buf (Elt Ideal) ℓ) (ρ : Dev nD → PrngReg) (c : Dev nD)

/-- The buffers after the first eighteen lines. -/
abbrev VE : Valuation τ sig (Elt Ideal) := StableHlo.after edgeLines (W0 m ρ c)

theorem W2_eq : W2 m ρ c = StableHlo.after hostOps0_1 (StableHlo.after degreeLines (VE m ρ c)) := by
  show StableHlo.after hostOps0_1 (StableHlo.after hostOps0 (W0 m ρ c)) = _
  rw [← after_append edgeLines degreeLines, List.take_append_drop]

/-- `row`: the first row of the edge list, then the node numbers. -/
theorem row_at_VE : VE m ρ c (Proc.devRef .tc main_v3) = val_main_v3 (F := Ideal) (m ((c : Thread nD τ).loc main_arg1)) := by
  simp only [VE, edgeLines, hostOps0, List.take_succ_cons, List.take_zero]
  after_results_simp
  rfl

/-- `col`: the second row of the edge list, then the node numbers. -/
theorem col_at_VE : VE m ρ c (Proc.devRef .tc main_v6) = val_main_v6 (F := Ideal) (m ((c : Thread nD τ).loc main_arg1)) := by
  simp only [VE, edgeLines, hostOps0, List.take_succ_cons, List.take_zero]
  after_results_simp
  rfl

/-- The edge weights: the logistic of `P_vec`, then ones. -/
theorem weight_at_VE : VE m ρ c (Proc.devRef .tc main_v14) = val_main_v14 (F := Ideal) (m ((c : Thread nD τ).loc main_arg2)) := by
  simp only [VE, edgeLines, hostOps0, List.take_succ_cons, List.take_zero]
  after_results_simp
  rfl

/-- None of the eighteen lines writes an argument. -/
theorem arg_at_VE (k : Fin 7) : VE m ρ c (Proc.devRef .tc (![main_arg0, main_arg1, main_arg2, main_arg3, main_arg4, main_arg5, main_arg6] k))
    = W0 m ρ c (Proc.devRef .tc (![main_arg0, main_arg1, main_arg2, main_arg3, main_arg4, main_arg5, main_arg6] k)) := by
  simp only [VE, edgeLines, hostOps0, List.take_succ_cons, List.take_zero]
  fin_cases k <;> after_results_simp

end Launch

/-! ## Every later line, from an arbitrary valuation -/

section Stages

variable (V : Valuation τ sig (Elt Ideal))
variable (x0 : (⟨S100000x128, .f32⟩ : BufTy).Contents (Elt Ideal)) (x1 : (⟨S2x1600000, .i32⟩ : BufTy).Contents (Elt Ideal))
  (x2 : (⟨S1600000, .f32⟩ : BufTy).Contents (Elt Ideal)) (x3 : (⟨S128x128, .f32⟩ : BufTy).Contents (Elt Ideal))
  (x4 : (⟨S128, .f32⟩ : BufTy).Contents (Elt Ideal)) (x5 : (⟨S128x64, .f32⟩ : BufTy).Contents (Elt Ideal))
  (x6 : (⟨S64, .f32⟩ : BufTy).Contents (Elt Ideal))

/-! The called function `_where` reads and writes plain buffers through references that carry the buffer's type; for
    a literal buffer the carried type is the buffer's own, and the transport is the identity. -/
theorem ofBuf_v19 (h1 h2 h3) (v : (⟨S100000, .i1⟩ : BufTy).Contents (Elt Ideal)) :
    (TRef.of (T := ⟨S100000, .i1⟩) main_v19 h1 h2 h3).ofBuf v = v := rfl
theorem ofBuf_v21 (h1 h2 h3) (v : (⟨S100000, .f32⟩ : BufTy).Contents (Elt Ideal)) :
    (TRef.of (T := ⟨S100000, .f32⟩) main_v21 h1 h2 h3).ofBuf v = v := rfl
theorem ofBuf_cst5 (h1 h2 h3) (v : (⟨S_, .f32⟩ : BufTy).Contents (Elt Ideal)) :
    (TRef.of (T := ⟨S_, .f32⟩) main_cst_5 h1 h2 h3).ofBuf v = v := rfl
theorem toBuf_v22 (h1 h2 h3) (v : (⟨S100000, .f32⟩ : BufTy).Contents (Elt Ideal)) :
    (TRef.of (T := ⟨S100000, .f32⟩) main_v22 h1 h2 h3).toBuf v = v := rfl

/-- `dinv`: the degree (the weights scatter-added at `col`) to the power -1/2 where it is positive, zero elsewhere. -/
theorem dinv_of (h6 : V (Proc.devRef .tc main_v6) = val_main_v6 (F := Ideal) x1)
    (h14 : V (Proc.devRef .tc main_v14) = val_main_v14 (F := Ideal) x2) :
    StableHlo.after hostOps0_1 (StableHlo.after degreeLines V) (Proc.devRef .tc main_v22) = val_main_v22 (F := Ideal) x1 x2 := by
  simp only [degreeLines, hostOps0, List.drop_succ_cons, List.drop_zero]
  after_results_simp
  rw [h6, h14]
  simp only [ofBuf_toBuf]
  rw [ofBuf_v19, ofBuf_v21, ofBuf_cst5, toBuf_v22]
  rfl

/-- The lines from the weights to `dinv` write none of `row`, `col`, the weights, the arguments. -/
theorem degree_keeps (k : Fin 10) :
    StableHlo.after hostOps0_1 (StableHlo.after degreeLines V) (Proc.devRef .tc (![main_v3, main_v6, main_v14, main_arg0, main_arg1, main_arg2, main_arg3, main_arg4, main_arg5, main_arg6] k))
      = V (Proc.devRef .tc (![main_v3, main_v6, main_v14, main_arg0, main_arg1, main_arg2, main_arg3, main_arg4, main_arg5, main_arg6] k)) := by
  simp only [degreeLines, hostOps0, List.drop_succ_cons, List.drop_zero]
  fin_cases k <;> after_results_simp

/-- `norm = dinv[row] · w · dinv[col]`. -/
theorem norm_of (h3 : V (Proc.devRef .tc main_v3) = val_main_v3 (F := Ideal) x1)
    (h6 : V (Proc.devRef .tc main_v6) = val_main_v6 (F := Ideal) x1)
    (h14 : V (Proc.devRef .tc main_v14) = val_main_v14 (F := Ideal) x2)
    (h22 : V (Proc.devRef .tc main_v22) = val_main_v22 (F := Ideal) x1 x2) :
    StableHlo.after hostOps0_2 V (Proc.devRef .tc main_v38) = val_main_v38 (F := Ideal) x1 x2 := by
  after_results_simp
  rw [h3, h6, h14, h22]
  rfl

/-- The third stretch writes none of `row`, `col`, the arguments. -/
theorem norm_keeps (k : Fin 7) :
    StableHlo.after hostOps0_2 V (Proc.devRef .tc (![main_v3, main_v6, main_arg0, main_arg3, main_arg4, main_arg5, main_arg6] k))
      = V (Proc.devRef .tc (![main_v3, main_v6, main_arg0, main_arg3, main_arg4, main_arg5, main_arg6] k)) := by
  fin_cases k <;> after_results_simp

/-- Layer 1's aggregation: the rows of `h₁ = x · W1` gathered at `row`, scaled by `norm`, scatter-added at `col`. -/
theorem agg1_of (h3 : V (Proc.devRef .tc main_v3) = val_main_v3 (F := Ideal) x1)
    (h6 : V (Proc.devRef .tc main_v6) = val_main_v6 (F := Ideal) x1)
    (h38 : V (Proc.devRef .tc main_v38) = val_main_v38 (F := Ideal) x1 x2)
    (h39 : V (Proc.devRef .tc main_v39) = val_main_v39 (F := Ideal) x0 x3) :
    StableHlo.after hostOps1 V (Proc.devRef .tc main_v52) = val_main_v52 (F := Ideal) x0 x1 x2 x3 := by
  after_results_simp
  rw [h3, h6, h38, h39]
  rfl

/-- The first bias as a one-row array: at `(0, k)` it is `b1 k`. -/
theorem bias1_of (h4 : V (Proc.devRef .tc main_arg4) = x4) (j : S1x128.Idx) :
    (StableHlo.after hostOps1 V (Proc.devRef .tc main_v53) : (⟨S1x128, .f32⟩ : BufTy).Contents (Elt Ideal)) j
      = x4 (Cert.ReferenceIdeal.Read.idx_main_v53 j) := by
  have e : (StableHlo.after hostOps1 V (Proc.devRef .tc main_v53) : (⟨S1x128, .f32⟩ : BufTy).Contents (Elt Ideal))
      = shapeCast S1x128 x4 shapeCasts_S128_S1x128 := by
    after_results_simp
    rw [h4]
    rfl
  rw [e]
  refine shapeCast_apply x4 shapeCasts_S128_S1x128 j _ ?_
  rw [Shape.rowMajor_val_one, Shape.rowMajor_val_two]
  have h0 : (j 0).val < 1 := (j 0).isLt
  show (j 1).val = (j 0).val * 128 + (j 1).val
  omega

/-- The fourth stretch writes none of `row`, `col`, `norm`, the later arguments. -/
theorem agg1_keeps (k : Fin 5) :
    StableHlo.after hostOps1 V (Proc.devRef .tc (![main_v3, main_v6, main_v38, main_arg5, main_arg6] k))
      = V (Proc.devRef .tc (![main_v3, main_v6, main_v38, main_arg5, main_arg6] k)) := by
  fin_cases k <;> after_results_simp

/-- Layer 2's aggregation: the rows of `h₂ = h · W2` gathered at `row`, scaled by `norm`, scatter-added at `col`. The
    reference computes `norm` a second time for this layer; it is the same term. -/
theorem agg2_of (h3 : V (Proc.devRef .tc main_v3) = val_main_v3 (F := Ideal) x1)
    (h6 : V (Proc.devRef .tc main_v6) = val_main_v6 (F := Ideal) x1)
    (h38 : V (Proc.devRef .tc main_v38) = val_main_v38 (F := Ideal) x1 x2)
    (h55 : V (Proc.devRef .tc main_v55) = val_main_v81 (F := Ideal) x0 x1 x2 x3 x4 x5) :
    StableHlo.after hostOps3 V (Proc.devRef .tc main_v68) = val_main_v94 (F := Ideal) x0 x1 x2 x3 x4 x5 := by
  after_results_simp
  rw [h3, h6, h38, h55]
  rfl

/-- The second bias as a one-row array: at `(0, k)` it is `b2 k`. -/
theorem bias2_of (h6' : V (Proc.devRef .tc main_arg6) = x6) (j : S1x64.Idx) :
    (StableHlo.after hostOps3 V (Proc.devRef .tc main_v69) : (⟨S1x64, .f32⟩ : BufTy).Contents (Elt Ideal)) j
      = x6 (Cert.ReferenceIdeal.Read.idx_main_v95 j) := by
  have e : (StableHlo.after hostOps3 V (Proc.devRef .tc main_v69) : (⟨S1x64, .f32⟩ : BufTy).Contents (Elt Ideal))
      = shapeCast S1x64 x6 shapeCasts_S64_S1x64 := by
    after_results_simp
    rw [h6']
    rfl
  rw [e]
  refine shapeCast_apply x6 shapeCasts_S64_S1x64 j _ ?_
  rw [Shape.rowMajor_val_one, Shape.rowMajor_val_two]
  have h0 : (j 0).val < 1 := (j 0).isLt
  show (j 1).val = (j 0).val * 64 + (j 1).val
  omega

end Stages

end Cert.KernelIdeal.HostStages

end
-- ==== Proof.LibRowBlockDot.lean ====
/-
  A matrix product taken a block of rows at a time.

  For a two-axis contraction `[M, K] × [K, N] → [M, N]` whose dimension numbers contract the left operand's second
  axis with the right operand's first and keep the other two in order (`PlainDot`), the sum over the contraction
  index at output `(r, c)` is `∑ k : Fin K, x (r, k) · w (k, c)` (`sum_contr_eq`). Hence the product of a block
  of rows of `X` with `W`, read at a row of the block, is the whole product `X · W` read at that row of the array
  (`rowblock_sum`): the two sums have the same terms. Only the commutative monoid of the extended reals' addition
  is used; nothing here needs a finite entry.
-/
import Idealize.ShloMosaic.Lib.ValueIdx
import Idealize.ShloMosaic.PureOps.Ideal.Laws

namespace Idealize.ShloMosaic.RowBlockDot

open Idealize.ShloMosaic Idealize.ShloMosaic.ValueIdx

/-- The dimension numbers of a plain matrix product: one contracted axis of extent `K`; the left operand's index at
    output `j` and contraction index `q` is `(j 0, q)`, the right operand's `(q, j 1)`. -/
structure PlainDot {M K N : Nat} (d : DotDims (⟨2, ![M, K]⟩ : Shape) (⟨2, ![K, N]⟩ : Shape) (⟨2, ![M, N]⟩ : Shape)) : Prop where
  hr : d.contr.rank = 1
  hs : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

variable {M K N : Nat}

/-- The contraction's sum at output `j` is the sum over `k : Fin K` of `x (j 0, k) · w (k, j 1)`. -/
theorem sum_contr_eq (d : DotDims (⟨2, ![M, K]⟩ : Shape) (⟨2, ![K, N]⟩ : Shape) (⟨2, ![M, N]⟩ : Shape)) (h : PlainDot d)
    (x : (⟨2, ![M, K]⟩ : Shape).Idx → EReal) (w : (⟨2, ![K, N]⟩ : Shape).Idx → EReal) (j : (⟨2, ![M, N]⟩ : Shape).Idx) :
    ∑ q : d.contr.Idx, x (d.lhsIdx j q) * w (d.rhsIdx j q) = ∑ k : Fin K, x (ix2 (j 0) k) * w (ix2 k (j 1)) := by
  rw [← Equiv.sum_comp (contrEquiv1 d K h.hr h.hs).symm]
  refine Finset.sum_congr rfl fun k _ => ?_
  have hk := contrEquiv1_symm_val d K h.hr h.hs k
  have el : d.lhsIdx j ((contrEquiv1 d K h.hr h.hs).symm k) = ix2 (j 0) k := funext fun a => Fin.ext (by
    match a with
    | ⟨0, _⟩ => exact h.l0 _ _
    | ⟨1, _⟩ => exact (h.l1 _ _).trans hk)
  have er : d.rhsIdx j ((contrEquiv1 d K h.hr h.hs).symm k) = ix2 k (j 1) := funext fun a => Fin.ext (by
    match a with
    | ⟨0, _⟩ => exact (h.r0 _ _).trans hk
    | ⟨1, _⟩ => exact h.r1 _ _)
  exact congrArg₂ (· * ·) (congrArg x el) (congrArg w er)

/-- A block of `Mb` rows times `W`, at row `y 0` of the block, is `X · W` at the array's row `i 0`, when the block's
    row `y 0` is the array's row `i 0` (`hx`) and the two right operands agree on column `y 1` / `i 1` (`hw`). -/
theorem rowblock_sum {Mb : Nat}
    (dW : DotDims (⟨2, ![M, K]⟩ : Shape) (⟨2, ![K, N]⟩ : Shape) (⟨2, ![M, N]⟩ : Shape)) (hW : PlainDot dW)
    (dB : DotDims (⟨2, ![Mb, K]⟩ : Shape) (⟨2, ![K, N]⟩ : Shape) (⟨2, ![Mb, N]⟩ : Shape)) (hB : PlainDot dB)
    (X : (⟨2, ![M, K]⟩ : Shape).Idx → EReal) (W : (⟨2, ![K, N]⟩ : Shape).Idx → EReal)
    (xb : (⟨2, ![Mb, K]⟩ : Shape).Idx → EReal) (wb : (⟨2, ![K, N]⟩ : Shape).Idx → EReal)
    (y : (⟨2, ![Mb, N]⟩ : Shape).Idx) (i : (⟨2, ![M, N]⟩ : Shape).Idx)
    (hx : ∀ k : Fin K, xb (ix2 (y 0) k) = X (ix2 (i 0) k))
    (hw : ∀ k : Fin K, wb (ix2 k (y 1)) = W (ix2 k (i 1))) :
    ∑ q : dB.contr.Idx, xb (dB.lhsIdx y q) * wb (dB.rhsIdx y q) = ∑ q : dW.contr.Idx, X (dW.lhsIdx i q) * W (dW.rhsIdx i q) := by
  rw [sum_contr_eq dB hB, sum_contr_eq dW hW]
  exact Finset.sum_congr rfl fun k _ => congrArg₂ (· * ·) (hx k) (hw k)

end Idealize.ShloMosaic.RowBlockDot
-- ==== Proof.Linear1.lean ====
/-
  The first region: the node features times the first layer's weights.

  The region walks the left operand in twenty blocks of 5000 rows; the right operand `W` is one block, the same at
  every point. At each block the body rounds both to bf16 — at the exact instance a change of float format is the
  identity — and multiplies them into a zero accumulator, so the output's block is the block of rows times `W`: at
  `(p, c)` the sum over `k` of `block (p, k) · W (k, c)`. A block's row `p` is the array's row `5000 t + p`, so this is
  the whole product `X · W` read at that row: block `t` of the output is block `t` of the contraction of the two arrays
  the region finds on entry, and the twenty blocks tile the output (row `r` lies in block `r / 5000`). The two sums
  have the same terms; nothing asks for a finite entry. Stated for ANY entry contents `V`.
-/
import proofs.«105898_j29351806501599_1_alg».proof.Proof.Gen.KernelIdeal.Frame
import proofs.«105898_j29351806501599_1_alg».proof.Proof.Gen.ReferenceIdeal.Read
import proofs.«105898_j29351806501599_1_alg».proof.Proof.LibRowBlockDot
import Idealize.ShloMosaic.Lib.ValueIdx
import Idealize.ShloMosaic.Lib.Pipeline.Value
import Idealize.ShloMosaic.PureOps.Ideal.Laws

set_option maxRecDepth 16384

noncomputable section

namespace Cert.KernelIdeal.Linear1

open Cert.KernelIdeal Cert.KernelIdeal.Gen
open Idealize.ShloMosaic Idealize.ShloMosaic.TcCoe Idealize.SL.Sem Idealize.ShloMosaic.ValueIdx
open Idealize.ShloMosaic.Pipeline (Dat Cfg Window)
open Idealize.ShloMosaic.RowBlockDot (PlainDot rowblock_sum)

theorem origin : (![0, 0] : Fin 2 → Nat) = fun _ => 0 := funext fun a => by fin_cases a <;> rfl

/-- The contraction of the whole arrays: the reference's own dimension numbers. -/
abbrev whole := Cert.ReferenceIdeal.dot_S100000x128_S128x128_S100000x128_1_0_0_1_n_n
/-- The contraction of a block of rows with `W`: the body's dimension numbers. -/
abbrev block := dot_S5000x128_S128x128_S5000x128_1_0_0_1_n_n

/-- The whole arrays' dimension numbers are a plain matrix product's. -/
theorem whole_plain : PlainDot (M := 100000) (K := 128) (N := 128) whole where
  hr := rfl
  hs := rfl
  l0 := Cert.ReferenceIdeal.Read.lhs_main_v39_0
  l1 := Cert.ReferenceIdeal.Read.lhs_main_v39_1
  r0 := Cert.ReferenceIdeal.Read.rhs_main_v39_0
  r1 := Cert.ReferenceIdeal.Read.rhs_main_v39_1

/-- So are the block's. -/
theorem block_plain : PlainDot (M := 5000) (K := 128) (N := 128) block where
  hr := rfl
  hs := rfl
  l0 := fun i q => by
    unfold DotDims.lhsIdx
    rw [dif_neg (show ¬(0 : Fin S5000x128.rank) ∈ block.lhsBatch by decide), dif_pos (show (0 : Fin S5000x128.rank) ∈ block.lhsNonContracting by decide)]
    rfl
  l1 := fun i q => block.lhsIdx_val_of_single rfl i q
  r0 := fun i q => block.rhsIdx_val_of_single rfl i q
  r1 := fun i q => by
    unfold DotDims.rhsIdx
    rw [dif_neg (show ¬(1 : Fin S128x128.rank) ∈ block.rhsBatch by decide), dif_pos (show (1 : Fin S128x128.rank) ∈ block.rhsNonContracting by decide)]
    rfl

/-- The region's result as one function of the two arrays it reads: their contraction, index by index. -/
def result (X : FVec Ideal S100000x128 .f32) (W : FVec Ideal S128x128 .f32) : FVec Ideal S100000x128 .f32 :=
  fun i => ∑ q : whole.contr.Idx, X (whole.lhsIdx i q) * W (whole.rhsIdx i q)

/-- The body's arithmetic read at an index of the block: the block's contraction. -/
theorem payload_apply (x0 : FVec Ideal S5000x128 .f32) (x1 : FVec Ideal S128x128 .f32) (j : S5000x128.Idx) :
    k0_pay1 x0 x1 j = ∑ q : block.contr.Idx, x0 (block.lhsIdx j q) * x1 (block.rhsIdx j q) := by
  unfold k0_pay1
  refine (Ideal.matmul_constant_zero_apply block none _ _ j).trans ?_
  rfl

/-- The index maps over the grid: the two row-blocked windows move together, block `t` at point `t`; `W`'s window
    stays at the origin. -/
theorem index_facts : ∀ t : Fin cfg0.N, win0_0.index t (0 : Fin 2) = win0_2.index t (0 : Fin 2)
    ∧ win0_0.index t (1 : Fin 2) = 0 ∧ win0_2.index t (1 : Fin 2) = 0
    ∧ win0_1.index t (0 : Fin 2) = 0 ∧ win0_1.index t (1 : Fin 2) = 0
    ∧ win0_2.index t (0 : Fin 2) = t.val :=
  (by decide +kernel : ∀ t : Fin grid0.N, _)

section Entry

variable (V : (c : Dev nD) → (b : Ref sig .tc) → Buf (Elt Ideal) ((c : Thread nD τ).loc b))

/-- Row `p` of the left operand's block at point `t` is the array's row under the output block's row `p`. -/
theorem left_block (c : Dev nD) (t : Fin cfg0.N) (j : S5000x128.Idx) (k : Fin 128) :
    iblk0 V c 0 t (ix2 (⟨(j 0).val, (j 0).isLt⟩ : Fin 5000) k)
      = (V c main_arg0 : FVec Ideal S100000x128 .f32) (ix2 (⟨((((cfg0.win 2).blk t).view.emb j) 0).val, ((((cfg0.win 2).blk t).view.emb j) 0).isLt⟩ : Fin 100000) k) := by
  obtain ⟨e0, e1, e2, e3, e4, e5⟩ := index_facts t
  show (V c main_arg0 : FVec Ideal S100000x128 .f32) (((cfg0.win 0).blk t).view.emb (ix2 (⟨(j 0).val, (j 0).isLt⟩ : Fin 5000) k)) = _
  refine congrArg (V c main_arg0 : FVec Ideal S100000x128 .f32) (funext fun a => Fin.ext ?_)
  match a with
  | ⟨0, _⟩ => show win0_0.index t (0 : Fin 2) * 5000 + 1 * (j 0).val = win0_2.index t (0 : Fin 2) * 5000 + 1 * (j 0).val; omega
  | ⟨1, _⟩ => show win0_0.index t (1 : Fin 2) * 128 + 1 * k.val = k.val; omega

/-- `W`'s block at any point is `W`, column by column. -/
theorem right_block (c : Dev nD) (t : Fin cfg0.N) (j : S5000x128.Idx) (k : Fin 128) :
    iblk0 V c 1 t (ix2 k (⟨(j 1).val, (j 1).isLt⟩ : Fin 128))
      = (V c main_arg3 : FVec Ideal S128x128 .f32) (ix2 k (⟨((((cfg0.win 2).blk t).view.emb j) 1).val, ((((cfg0.win 2).blk t).view.emb j) 1).isLt⟩ : Fin 128)) := by
  obtain ⟨e0, e1, e2, e3, e4, e5⟩ := index_facts t
  show (V c main_arg3 : FVec Ideal S128x128 .f32) (((cfg0.win 1).blk t).view.emb (ix2 k (⟨(j 1).val, (j 1).isLt⟩ : Fin 128))) = _
  refine congrArg (V c main_arg3 : FVec Ideal S128x128 .f32) (funext fun a => Fin.ext ?_)
  match a with
  | ⟨0, _⟩ => show win0_1.index t (0 : Fin 2) * 128 + 1 * k.val = k.val; omega
  | ⟨1, _⟩ => show win0_1.index t (1 : Fin 2) * 128 + 1 * (j 1).val = win0_2.index t (1 : Fin 2) * 128 + 1 * (j 1).val; omega

/-- What point `t` writes back is block `t` of the contraction of the arrays as the region finds them. -/
theorem flushed_eq (c : Dev nD) (t : Fin cfg0.N) :
    (dat0 V c).flushed 2 t = ((cfg0.win 2).blk t).view.read (Elt Ideal) (result (V c main_arg0) (V c main_arg3)) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x128) origin]
  funext j
  refine (payload_apply (iblk0 V c 0 t) (iblk0 V c 1 t) j).trans ?_
  exact rowblock_sum whole whole_plain block block_plain (V c main_arg0 : FVec Ideal S100000x128 .f32) (V c main_arg3 : FVec Ideal S128x128 .f32)
    (iblk0 V c 0 t) (iblk0 V c 1 t) j (((cfg0.win 2).blk t).view.emb j)
    (fun k => left_block V c t j k) (fun k => right_block V c t j k)

/-- An index of the array is in point `t`'s block iff each coordinate is in the block's range on its axis. -/
theorem mem_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v39).slice (win0_2.rect t)).set ↔ _
  rw [View.set_slice_whole, Rect.mem_set_unit]
  exact Iff.rfl

/-- Row `r` lies in the block of point `r / 5000`: the twenty blocks tile the array. -/
theorem covered (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : (i 0).val / 5000 < cfg0.N := by show (i 0).val / 5000 < 20; omega
  obtain ⟨e0, e1, e2, e3, e4, e5⟩ := index_facts ⟨(i 0).val / 5000, hN⟩
  refine ⟨⟨(i 0).val / 5000, hN⟩, flush0_2 _, ?_⟩
  rw [mem_block]
  intro a
  match a with
  | ⟨0, _⟩ =>
    show win0_2.index ⟨(i 0).val / 5000, hN⟩ (0 : Fin 2) * 5000 ≤ (i 0).val ∧ (i 0).val < win0_2.index ⟨(i 0).val / 5000, hN⟩ (0 : Fin 2) * 5000 + 5000
    rw [e5]; show (i 0).val / 5000 * 5000 ≤ (i 0).val ∧ (i 0).val < (i 0).val / 5000 * 5000 + 5000; omega
  | ⟨1, _⟩ =>
    show win0_2.index ⟨(i 0).val / 5000, hN⟩ (1 : Fin 2) * 128 ≤ (i 1).val ∧ (i 1).val < win0_2.index ⟨(i 0).val / 5000, hN⟩ (1 : Fin 2) * 128 + 128
    rw [e2]; omega

/-- The output array after the region. -/
theorem array_eq (c : Dev nD) : (dat0 V c).arrAt 2 cfg0.N = result (V c main_arg0) (V c main_arg3) :=
  (dat0 V c).arrAt_eq_of_cover 2 _ (fun t _ => flushed_eq V c t) covered

end Entry

/-! ## Against the reference -/

/-- The region's result is the host's contraction of the two arrays under the reference's dimension numbers: at the
    exact instance that contraction is the same sum, index by index. -/
theorem result_eq_dot (X : FVec Ideal S100000x128 .f32) (W : FVec Ideal S128x128 .f32) :
    result X W = Host.dotGeneral (F := Ideal) whole none X W := by
  funext i
  unfold result
  simp only [Host.dotGeneral]
  exact (Ideal.dotGeneral_apply whole none _ X W i).symm

end Cert.KernelIdeal.Linear1

end
-- ==== Proof.BiasRelu.lean ====
/-
  The second region: the first layer's aggregate plus its bias, clamped at zero.

  The region walks the array in twenty blocks of 5000 rows. At each block the body loads the block and the one-row
  bias array, adds the bias row to every row of the block, clamps at zero from below, and stores the result as the output's
  block. Hence the output array ends holding, at `(r, k)`, `max (a (r, k) + b (0, k)) 0` of the arrays `a`, `b` the region
  finds on entry: block `t` of the output is the same function of block `t` of `a` and of `b`, and the twenty blocks
  tile the array (row `r` lies in block `r / 5000`). Stated for ANY entry contents `V`.
-/
import proofs.«105898_j29351806501599_1_alg».proof.Proof.Gen.KernelIdeal.Frame
import proofs.«105898_j29351806501599_1_alg».proof.Proof.Gen.ReferenceIdeal.Read
import Idealize.ShloMosaic.Lib.ValueIdx
import Idealize.ShloMosaic.Lib.Pipeline.Value

set_option maxRecDepth 16384

noncomputable section

namespace Cert.KernelIdeal.BiasRelu

open Cert.KernelIdeal Cert.KernelIdeal.Gen
open Idealize.ShloMosaic Idealize.ShloMosaic.TcCoe Idealize.SL.Sem
open Idealize.ShloMosaic.Pipeline (Dat Cfg Window)

theorem origin : (![0, 0] : Fin 2 → Nat) = fun _ => 0 := funext fun a => by fin_cases a <;> rfl

/-- The one-row array's index under an index of the array: row 0, the same column. -/
abbrev under (i : S100000x128.Idx) : S1x128.Idx := Cert.ReferenceIdeal.Read.idx_main_v54 i
/-- The same under an index of a block. -/
abbrev underBlock (j : S5000x128.Idx) : S1x128.Idx := fun a => match a with
  | ⟨0, _⟩ => ⟨0, Nat.one_pos⟩
  | ⟨1, _⟩ => ⟨(j 1).val, (j 1).isLt⟩

/-- The region's result as one function of the two arrays it reads. -/
def result (a : FVec Ideal S100000x128 .f32) (b : FVec Ideal S1x128 .f32) : FVec Ideal S100000x128 .f32 :=
  fun i => FloatOps.maximumf (F := Ideal) (FloatOps.addf (F := Ideal) (a i) (b (under i))) (Scalar.ofBits (F := Ideal) .f32 0x00000000#32)

/-- The body's arithmetic read at an index of the block. -/
theorem payload_apply (x0 : FVec Ideal S5000x128 .f32) (x1 : FVec Ideal S1x128 .f32) (j : S5000x128.Idx) :
    k1_pay1 x0 x1 j = FloatOps.maximumf (F := Ideal) (FloatOps.addf (F := Ideal) (x0 j) (x1 (underBlock j))) (Scalar.ofBits (F := Ideal) .f32 0x00000000#32) := by
  unfold k1_pay1
  show FloatOps.maximumf (F := Ideal) (FloatOps.addf (F := Ideal) (shapeCast S5000x128 x0 shapeCasts_S5000x128_S5000x128 j)
      (broadcastTo S5000x128 (shapeCast S1x128 x1 shapeCasts_S1x128_S1x128) broadcasts_S1x128_S5000x128 j)) (Scalar.ofBits (F := Ideal) .f32 0x00000000#32) = _
  rw [shapeCast_self, shapeCast_self]
  refine congrArg (fun z => FloatOps.maximumf (F := Ideal) (FloatOps.addf (F := Ideal) (x0 j) z) (Scalar.ofBits (F := Ideal) .f32 0x00000000#32)) ?_
  exact broadcastTo_apply x1 broadcasts_S1x128_S5000x128 j (underBlock j) (fun a => match a with
    | ⟨0, _⟩ => by show 0 = if (1 : Nat) = 1 then 0 else (j 0).val; rw [if_pos rfl]
    | ⟨1, _⟩ => by show (j 1).val = if (128 : Nat) = 1 then 0 else (j 1).val; rw [if_neg (by decide)])

/-- The index maps over the grid: the two row-blocked windows move together, block `t` at point `t`; the bias window
    stays at the origin. -/
theorem index_facts : ∀ t : Fin cfg1.N, win1_0.index t (0 : Fin 2) = win1_2.index t (0 : Fin 2)
    ∧ win1_0.index t (1 : Fin 2) = 0 ∧ win1_2.index t (1 : Fin 2) = 0
    ∧ win1_1.index t (0 : Fin 2) = 0 ∧ win1_1.index t (1 : Fin 2) = 0
    ∧ win1_2.index t (0 : Fin 2) = t.val :=
  (by decide +kernel : ∀ t : Fin grid1.N, _)

section Entry

variable (V : (c : Dev nD) → (b : Ref sig .tc) → Buf (Elt Ideal) ((c : Thread nD τ).loc b))

/-- What point `t` writes back is block `t` of `result` of the arrays as the region finds them. -/
theorem flushed_eq (c : Dev nD) (t : Fin cfg1.N) :
    (dat1 V c).flushed 2 t = ((cfg1.win 2).blk t).view.read (Elt Ideal) (result (V c main_v52) (V c main_v53)) := by
  show (cfg1.win 2).cut (grid1.coords t) ((dat1 V c).after 2 t) = _
  rw [after1_2]
  unfold out1_2
  rw [View.canon_unit_zero origin]
  simp only [View.ld_unit_zero (S := S5000x128) origin, View.ld_unit_zero (S := S1x128) origin]
  obtain ⟨e0, e1, e2, e3, e4, e5⟩ := index_facts t
  funext j
  refine (payload_apply (iblk1 V c 0 t) (iblk1 V c 1 t) j).trans ?_
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb (underBlock j) = under (((cfg1.win 2).blk t).view.emb j) := by
    funext a; apply Fin.ext
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega
  show FloatOps.maximumf (F := Ideal) (FloatOps.addf (F := Ideal) ((V c main_v52 : FVec Ideal S100000x128 .f32) (((cfg1.win 0).blk t).view.emb j)) ((V c main_v53 : FVec Ideal S1x128 .f32) (((cfg1.win 1).blk t).view.emb (underBlock j)))) (Scalar.ofBits (F := Ideal) .f32 0x00000000#32)
    = FloatOps.maximumf (F := Ideal) (FloatOps.addf (F := Ideal) ((V c main_v52 : FVec Ideal S100000x128 .f32) (((cfg1.win 2).blk t).view.emb j)) ((V c main_v53 : FVec Ideal S1x128 .f32) (under (((cfg1.win 2).blk t).view.emb j)))) (Scalar.ofBits (F := Ideal) .f32 0x00000000#32)
  rw [h0, h1]

/-- An index of the array is in point `t`'s block iff each coordinate is in the block's range on its axis. -/
theorem mem_block (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v54).slice (win1_2.rect t)).set ↔ _
  rw [View.set_slice_whole, Rect.mem_set_unit]
  exact Iff.rfl

/-- Row `r` lies in the block of point `r / 5000`: the twenty blocks tile the array. -/
theorem covered (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : (i 0).val / 5000 < cfg1.N := by show (i 0).val / 5000 < 20; omega
  obtain ⟨e0, e1, e2, e3, e4, e5⟩ := index_facts ⟨(i 0).val / 5000, hN⟩
  refine ⟨⟨(i 0).val / 5000, hN⟩, flush1_2 _, ?_⟩
  rw [mem_block]
  intro a
  match a with
  | ⟨0, _⟩ =>
    show win1_2.index ⟨(i 0).val / 5000, hN⟩ (0 : Fin 2) * 5000 ≤ (i 0).val ∧ (i 0).val < win1_2.index ⟨(i 0).val / 5000, hN⟩ (0 : Fin 2) * 5000 + 5000
    rw [e5]; show (i 0).val / 5000 * 5000 ≤ (i 0).val ∧ (i 0).val < (i 0).val / 5000 * 5000 + 5000; omega
  | ⟨1, _⟩ =>
    show win1_2.index ⟨(i 0).val / 5000, hN⟩ (1 : Fin 2) * 128 ≤ (i 1).val ∧ (i 1).val < win1_2.index ⟨(i 0).val / 5000, hN⟩ (1 : Fin 2) * 128 + 128
    rw [e2]; omega

/-- The output array after the region. -/
theorem array_eq (c : Dev nD) : (dat1 V c).arrAt 2 cfg1.N = result (V c main_v52) (V c main_v53) :=
  (dat1 V c).arrAt_eq_of_cover 2 _ (fun t _ => flushed_eq V c t) covered

end Entry

/-! ## Against the reference -/

open Cert.ReferenceIdeal.Read in
/-- Of the reference's first aggregate and of the bias `b1` as a one-row array, the region's result is the reference's
    hidden features: `max (agg + b1) 0`, the bias broadcast along the rows, the zero a broadcast constant. -/
theorem result_eq_reference (x0 : FVec Ideal S100000x128 .f32) (x1 : (⟨S2x1600000, .i32⟩ : BufTy).Contents (Elt Ideal))
    (x2 : FVec Ideal S1600000 .f32) (x3 : FVec Ideal S128x128 .f32) (x4 : FVec Ideal S128 .f32) (b : FVec Ideal S1x128 .f32)
    (hb : ∀ j : S1x128.Idx, b j = x4 (idx_main_v53 j)) :
    result (val_main_v52 (F := Ideal) x0 x1 x2 x3) b = val_main_v56 (F := Ideal) x0 x1 x2 x3 x4 := by
  funext i
  rw [val_main_v56_apply, val_main_v55_apply, val_main_v54_apply, val_main_v53_apply, val_main_call1_v0_apply, val_main_call1_cst_apply]
  show FloatOps.maximumf (F := Ideal) (FloatOps.addf (F := Ideal) (val_main_v52 (F := Ideal) x0 x1 x2 x3 i) (b (under i))) (Scalar.ofBits (F := Ideal) .f32 0x00000000#32) = _
  rw [hb]

end Cert.KernelIdeal.BiasRelu

end
-- ==== Proof.Linear2.lean ====
/-
  The third region: the hidden features times the second layer's weights.

  The region walks the left operand in twenty blocks of 5000 rows; the right operand `W` is one block, the same at
  every point. At each block the body rounds both to bf16 — at the exact instance a change of float format is the
  identity — and multiplies them into a zero accumulator, so the output's block is the block of rows times `W`: at
  `(p, c)` the sum over `k` of `block (p, k) · W (k, c)`. A block's row `p` is the array's row `5000 t + p`, so this is
  the whole product `X · W` read at that row: block `t` of the output is block `t` of the contraction of the two arrays
  the region finds on entry, and the twenty blocks tile the output (row `r` lies in block `r / 5000`). The two sums
  have the same terms; nothing asks for a finite entry. Stated for ANY entry contents `V`.
-/
import proofs.«105898_j29351806501599_1_alg».proof.Proof.Gen.KernelIdeal.Frame
import proofs.«105898_j29351806501599_1_alg».proof.Proof.Gen.ReferenceIdeal.Read
import proofs.«105898_j29351806501599_1_alg».proof.Proof.LibRowBlockDot
import Idealize.ShloMosaic.Lib.ValueIdx
import Idealize.ShloMosaic.Lib.Pipeline.Value
import Idealize.ShloMosaic.PureOps.Ideal.Laws

set_option maxRecDepth 16384

noncomputable section

namespace Cert.KernelIdeal.Linear2

open Cert.KernelIdeal Cert.KernelIdeal.Gen
open Idealize.ShloMosaic Idealize.ShloMosaic.TcCoe Idealize.SL.Sem Idealize.ShloMosaic.ValueIdx
open Idealize.ShloMosaic.Pipeline (Dat Cfg Window)
open Idealize.ShloMosaic.RowBlockDot (PlainDot rowblock_sum)

theorem origin : (![0, 0] : Fin 2 → Nat) = fun _ => 0 := funext fun a => by fin_cases a <;> rfl

/-- The contraction of the whole arrays: the reference's own dimension numbers. -/
abbrev whole := Cert.ReferenceIdeal.dot_S100000x128_S128x64_S100000x64_1_0_0_1_n_n
/-- The contraction of a block of rows with `W`: the body's dimension numbers. -/
abbrev block := dot_S5000x128_S128x64_S5000x64_1_0_0_1_n_n

/-- The whole arrays' dimension numbers are a plain matrix product's. -/
theorem whole_plain : PlainDot (M := 100000) (K := 128) (N := 64) whole where
  hr := rfl
  hs := rfl
  l0 := Cert.ReferenceIdeal.Read.lhs_main_v81_0
  l1 := Cert.ReferenceIdeal.Read.lhs_main_v81_1
  r0 := Cert.ReferenceIdeal.Read.rhs_main_v81_0
  r1 := Cert.ReferenceIdeal.Read.rhs_main_v81_1

/-- So are the block's. -/
theorem block_plain : PlainDot (M := 5000) (K := 128) (N := 64) block where
  hr := rfl
  hs := rfl
  l0 := fun i q => by
    unfold DotDims.lhsIdx
    rw [dif_neg (show ¬(0 : Fin S5000x128.rank) ∈ block.lhsBatch by decide), dif_pos (show (0 : Fin S5000x128.rank) ∈ block.lhsNonContracting by decide)]
    rfl
  l1 := fun i q => block.lhsIdx_val_of_single rfl i q
  r0 := fun i q => block.rhsIdx_val_of_single rfl i q
  r1 := fun i q => by
    unfold DotDims.rhsIdx
    rw [dif_neg (show ¬(1 : Fin S128x64.rank) ∈ block.rhsBatch by decide), dif_pos (show (1 : Fin S128x64.rank) ∈ block.rhsNonContracting by decide)]
    rfl

/-- The region's result as one function of the two arrays it reads: their contraction, index by index. -/
def result (X : FVec Ideal S100000x128 .f32) (W : FVec Ideal S128x64 .f32) : FVec Ideal S100000x64 .f32 :=
  fun i => ∑ q : whole.contr.Idx, X (whole.lhsIdx i q) * W (whole.rhsIdx i q)

/-- The body's arithmetic read at an index of the block: the block's contraction. -/
theorem payload_apply (x0 : FVec Ideal S5000x128 .f32) (x1 : FVec Ideal S128x64 .f32) (j : S5000x64.Idx) :
    k2_pay1 x0 x1 j = ∑ q : block.contr.Idx, x0 (block.lhsIdx j q) * x1 (block.rhsIdx j q) := by
  unfold k2_pay1
  refine (Ideal.matmul_constant_zero_apply block none _ _ j).trans ?_
  rw [shapeCast_self]
  rfl

/-- The index maps over the grid: the two row-blocked windows move together, block `t` at point `t`; `W`'s window
    stays at the origin. -/
theorem index_facts : ∀ t : Fin cfg2.N, win2_0.index t (0 : Fin 2) = win2_2.index t (0 : Fin 2)
    ∧ win2_0.index t (1 : Fin 2) = 0 ∧ win2_2.index t (1 : Fin 2) = 0
    ∧ win2_1.index t (0 : Fin 2) = 0 ∧ win2_1.index t (1 : Fin 2) = 0
    ∧ win2_2.index t (0 : Fin 2) = t.val :=
  (by decide +kernel : ∀ t : Fin grid2.N, _)

section Entry

variable (V : (c : Dev nD) → (b : Ref sig .tc) → Buf (Elt Ideal) ((c : Thread nD τ).loc b))

/-- Row `p` of the left operand's block at point `t` is the array's row under the output block's row `p`. -/
theorem left_block (c : Dev nD) (t : Fin cfg2.N) (j : S5000x64.Idx) (k : Fin 128) :
    iblk2 V c 0 t (ix2 (⟨(j 0).val, (j 0).isLt⟩ : Fin 5000) k)
      = (V c main_v54 : FVec Ideal S100000x128 .f32) (ix2 (⟨((((cfg2.win 2).blk t).view.emb j) 0).val, ((((cfg2.win 2).blk t).view.emb j) 0).isLt⟩ : Fin 100000) k) := by
  obtain ⟨e0, e1, e2, e3, e4, e5⟩ := index_facts t
  show (V c main_v54 : FVec Ideal S100000x128 .f32) (((cfg2.win 0).blk t).view.emb (ix2 (⟨(j 0).val, (j 0).isLt⟩ : Fin 5000) k)) = _
  refine congrArg (V c main_v54 : FVec Ideal S100000x128 .f32) (funext fun a => Fin.ext ?_)
  match a with
  | ⟨0, _⟩ => show win2_0.index t (0 : Fin 2) * 5000 + 1 * (j 0).val = win2_2.index t (0 : Fin 2) * 5000 + 1 * (j 0).val; omega
  | ⟨1, _⟩ => show win2_0.index t (1 : Fin 2) * 128 + 1 * k.val = k.val; omega

/-- `W`'s block at any point is `W`, column by column. -/
theorem right_block (c : Dev nD) (t : Fin cfg2.N) (j : S5000x64.Idx) (k : Fin 128) :
    iblk2 V c 1 t (ix2 k (⟨(j 1).val, (j 1).isLt⟩ : Fin 64))
      = (V c main_arg5 : FVec Ideal S128x64 .f32) (ix2 k (⟨((((cfg2.win 2).blk t).view.emb j) 1).val, ((((cfg2.win 2).blk t).view.emb j) 1).isLt⟩ : Fin 64)) := by
  obtain ⟨e0, e1, e2, e3, e4, e5⟩ := index_facts t
  show (V c main_arg5 : FVec Ideal S128x64 .f32) (((cfg2.win 1).blk t).view.emb (ix2 k (⟨(j 1).val, (j 1).isLt⟩ : Fin 64))) = _
  refine congrArg (V c main_arg5 : FVec Ideal S128x64 .f32) (funext fun a => Fin.ext ?_)
  match a with
  | ⟨0, _⟩ => show win2_1.index t (0 : Fin 2) * 128 + 1 * k.val = k.val; omega
  | ⟨1, _⟩ => show win2_1.index t (1 : Fin 2) * 64 + 1 * (j 1).val = win2_2.index t (1 : Fin 2) * 64 + 1 * (j 1).val; omega

/-- What point `t` writes back is block `t` of the contraction of the arrays as the region finds them. -/
theorem flushed_eq (c : Dev nD) (t : Fin cfg2.N) :
    (dat2 V c).flushed 2 t = ((cfg2.win 2).blk t).view.read (Elt Ideal) (result (V c main_v54) (V c main_arg5)) := by
  show (cfg2.win 2).cut (grid2.coords t) ((dat2 V c).after 2 t) = _
  rw [after2_2]
  unfold out2_2
  rw [View.canon_unit_zero origin]
  simp only [View.ld_unit_zero (S := S5000x128) origin, View.ld_unit_zero (S := S128x64) origin]
  funext j
  refine (payload_apply (iblk2 V c 0 t) (iblk2 V c 1 t) j).trans ?_
  exact rowblock_sum whole whole_plain block block_plain (V c main_v54 : FVec Ideal S100000x128 .f32) (V c main_arg5 : FVec Ideal S128x64 .f32)
    (iblk2 V c 0 t) (iblk2 V c 1 t) j (((cfg2.win 2).blk t).view.emb j)
    (fun k => left_block V c t j k) (fun k => right_block V c t j k)

/-- An index of the array is in point `t`'s block iff each coordinate is in the block's range on its axis. -/
theorem mem_block (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v55).slice (win2_2.rect t)).set ↔ _
  rw [View.set_slice_whole, Rect.mem_set_unit]
  exact Iff.rfl

/-- Row `r` lies in the block of point `r / 5000`: the twenty blocks tile the array. -/
theorem covered (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : (i 0).val / 5000 < cfg2.N := by show (i 0).val / 5000 < 20; omega
  obtain ⟨e0, e1, e2, e3, e4, e5⟩ := index_facts ⟨(i 0).val / 5000, hN⟩
  refine ⟨⟨(i 0).val / 5000, hN⟩, flush2_2 _, ?_⟩
  rw [mem_block]
  intro a
  match a with
  | ⟨0, _⟩ =>
    show win2_2.index ⟨(i 0).val / 5000, hN⟩ (0 : Fin 2) * 5000 ≤ (i 0).val ∧ (i 0).val < win2_2.index ⟨(i 0).val / 5000, hN⟩ (0 : Fin 2) * 5000 + 5000
    rw [e5]; show (i 0).val / 5000 * 5000 ≤ (i 0).val ∧ (i 0).val < (i 0).val / 5000 * 5000 + 5000; omega
  | ⟨1, _⟩ =>
    show win2_2.index ⟨(i 0).val / 5000, hN⟩ (1 : Fin 2) * 64 ≤ (i 1).val ∧ (i 1).val < win2_2.index ⟨(i 0).val / 5000, hN⟩ (1 : Fin 2) * 64 + 64
    rw [e2]; omega

/-- The output array after the region. -/
theorem array_eq (c : Dev nD) : (dat2 V c).arrAt 2 cfg2.N = result (V c main_v54) (V c main_arg5) :=
  (dat2 V c).arrAt_eq_of_cover 2 _ (fun t _ => flushed_eq V c t) covered

end Entry

/-! ## Against the reference -/

/-- The region's result is the host's contraction of the two arrays under the reference's dimension numbers: at the
    exact instance that contraction is the same sum, index by index. -/
theorem result_eq_dot (X : FVec Ideal S100000x128 .f32) (W : FVec Ideal S128x64 .f32) :
    result X W = Host.dotGeneral (F := Ideal) whole none X W := by
  funext i
  unfold result
  simp only [Host.dotGeneral]
  exact (Ideal.dotGeneral_apply whole none _ X W i).symm

end Cert.KernelIdeal.Linear2

end
-- ==== Proof.BiasOut.lean ====
/-
  The last region: the second layer's aggregate plus its bias.

  The region walks the array in twenty blocks of 5000 rows. At each block the body loads the block and the one-row
  bias array, adds the bias row to every row of the block and stores the result as the output's
  block. Hence the output array ends holding, at `(r, k)`, `a (r, k) + b (0, k)` of the arrays `a`, `b` the region
  finds on entry: block `t` of the output is the same function of block `t` of `a` and of `b`, and the twenty blocks
  tile the array (row `r` lies in block `r / 5000`). Stated for ANY entry contents `V`.
-/
import proofs.«105898_j29351806501599_1_alg».proof.Proof.Gen.KernelIdeal.Frame
import proofs.«105898_j29351806501599_1_alg».proof.Proof.Gen.ReferenceIdeal.Read
import Idealize.ShloMosaic.Lib.ValueIdx
import Idealize.ShloMosaic.Lib.Pipeline.Value

set_option maxRecDepth 16384

noncomputable section

namespace Cert.KernelIdeal.BiasOut

open Cert.KernelIdeal Cert.KernelIdeal.Gen
open Idealize.ShloMosaic Idealize.ShloMosaic.TcCoe Idealize.SL.Sem
open Idealize.ShloMosaic.Pipeline (Dat Cfg Window)

theorem origin : (![0, 0] : Fin 2 → Nat) = fun _ => 0 := funext fun a => by fin_cases a <;> rfl

/-- The one-row array's index under an index of the array: row 0, the same column. -/
abbrev under (i : S100000x64.Idx) : S1x64.Idx := Cert.ReferenceIdeal.Read.idx_main_v96 i
/-- The same under an index of a block. -/
abbrev underBlock (j : S5000x64.Idx) : S1x64.Idx := fun a => match a with
  | ⟨0, _⟩ => ⟨0, Nat.one_pos⟩
  | ⟨1, _⟩ => ⟨(j 1).val, (j 1).isLt⟩

/-- The region's result as one function of the two arrays it reads. -/
def result (a : FVec Ideal S100000x64 .f32) (b : FVec Ideal S1x64 .f32) : FVec Ideal S100000x64 .f32 :=
  fun i => FloatOps.addf (F := Ideal) (a i) (b (under i))

/-- The body's arithmetic read at an index of the block. -/
theorem payload_apply (x0 : FVec Ideal S5000x64 .f32) (x1 : FVec Ideal S1x64 .f32) (j : S5000x64.Idx) :
    k3_pay1 x0 x1 j = FloatOps.addf (F := Ideal) (x0 j) (x1 (underBlock j)) := by
  unfold k3_pay1
  show FloatOps.addf (F := Ideal) (shapeCast S5000x64 x0 shapeCasts_S5000x64_S5000x64 j)
      (broadcastTo S5000x64 (shapeCast S1x64 x1 shapeCasts_S1x64_S1x64) broadcasts_S1x64_S5000x64 j) = _
  rw [shapeCast_self, shapeCast_self]
  refine congrArg (fun z => FloatOps.addf (F := Ideal) (x0 j) z) ?_
  exact broadcastTo_apply x1 broadcasts_S1x64_S5000x64 j (underBlock j) (fun a => match a with
    | ⟨0, _⟩ => by show 0 = if (1 : Nat) = 1 then 0 else (j 0).val; rw [if_pos rfl]
    | ⟨1, _⟩ => by show (j 1).val = if (64 : Nat) = 1 then 0 else (j 1).val; rw [if_neg (by decide)])

/-- The index maps over the grid: the two row-blocked windows move together, block `t` at point `t`; the bias window
    stays at the origin. -/
theorem index_facts : ∀ t : Fin cfg3.N, win3_0.index t (0 : Fin 2) = win3_2.index t (0 : Fin 2)
    ∧ win3_0.index t (1 : Fin 2) = 0 ∧ win3_2.index t (1 : Fin 2) = 0
    ∧ win3_1.index t (0 : Fin 2) = 0 ∧ win3_1.index t (1 : Fin 2) = 0
    ∧ win3_2.index t (0 : Fin 2) = t.val :=
  (by decide +kernel : ∀ t : Fin grid3.N, _)

section Entry

variable (V : (c : Dev nD) → (b : Ref sig .tc) → Buf (Elt Ideal) ((c : Thread nD τ).loc b))

/-- What point `t` writes back is block `t` of `result` of the arrays as the region finds them. -/
theorem flushed_eq (c : Dev nD) (t : Fin cfg3.N) :
    (dat3 V c).flushed 2 t = ((cfg3.win 2).blk t).view.read (Elt Ideal) (result (V c main_v68) (V c main_v69)) := by
  show (cfg3.win 2).cut (grid3.coords t) ((dat3 V c).after 2 t) = _
  rw [after3_2]
  unfold out3_2
  rw [View.canon_unit_zero origin]
  simp only [View.ld_unit_zero (S := S5000x64) origin, View.ld_unit_zero (S := S1x64) origin]
  obtain ⟨e0, e1, e2, e3, e4, e5⟩ := index_facts t
  funext j
  refine (payload_apply (iblk3 V c 0 t) (iblk3 V c 1 t) j).trans ?_
  have h0 : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 64 + 1 * (j 1).val = win3_2.index t (1 : Fin 2) * 64 + 1 * (j 1).val; omega
  have h1 : ((cfg3.win 1).blk t).view.emb (underBlock j) = under (((cfg3.win 2).blk t).view.emb j) := by
    funext a; apply Fin.ext
    match a with
    | ⟨0, _⟩ => show win3_1.index t (0 : Fin 2) * 1 + 1 * 0 = 0; omega
    | ⟨1, _⟩ => show win3_1.index t (1 : Fin 2) * 64 + 1 * (j 1).val = win3_2.index t (1 : Fin 2) * 64 + 1 * (j 1).val; omega
  show FloatOps.addf (F := Ideal) ((V c main_v68 : FVec Ideal S100000x64 .f32) (((cfg3.win 0).blk t).view.emb j)) ((V c main_v69 : FVec Ideal S1x64 .f32) (((cfg3.win 1).blk t).view.emb (underBlock j)))
    = FloatOps.addf (F := Ideal) ((V c main_v68 : FVec Ideal S100000x64 .f32) (((cfg3.win 2).blk t).view.emb j)) ((V c main_v69 : FVec Ideal S1x64 .f32) (under (((cfg3.win 2).blk t).view.emb j)))
  rw [h0, h1]

/-- An index of the array is in point `t`'s block iff each coordinate is in the block's range on its axis. -/
theorem mem_block (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v70).slice (win3_2.rect t)).set ↔ _
  rw [View.set_slice_whole, Rect.mem_set_unit]
  exact Iff.rfl

/-- Row `r` lies in the block of point `r / 5000`: the twenty blocks tile the array. -/
theorem covered (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : (i 0).val / 5000 < cfg3.N := by show (i 0).val / 5000 < 20; omega
  obtain ⟨e0, e1, e2, e3, e4, e5⟩ := index_facts ⟨(i 0).val / 5000, hN⟩
  refine ⟨⟨(i 0).val / 5000, hN⟩, flush3_2 _, ?_⟩
  rw [mem_block]
  intro a
  match a with
  | ⟨0, _⟩ =>
    show win3_2.index ⟨(i 0).val / 5000, hN⟩ (0 : Fin 2) * 5000 ≤ (i 0).val ∧ (i 0).val < win3_2.index ⟨(i 0).val / 5000, hN⟩ (0 : Fin 2) * 5000 + 5000
    rw [e5]; show (i 0).val / 5000 * 5000 ≤ (i 0).val ∧ (i 0).val < (i 0).val / 5000 * 5000 + 5000; omega
  | ⟨1, _⟩ =>
    show win3_2.index ⟨(i 0).val / 5000, hN⟩ (1 : Fin 2) * 64 ≤ (i 1).val ∧ (i 1).val < win3_2.index ⟨(i 0).val / 5000, hN⟩ (1 : Fin 2) * 64 + 64
    rw [e2]; omega

/-- The output array after the region. -/
theorem array_eq (c : Dev nD) : (dat3 V c).arrAt 2 cfg3.N = result (V c main_v68) (V c main_v69) :=
  (dat3 V c).arrAt_eq_of_cover 2 _ (fun t _ => flushed_eq V c t) covered

end Entry

/-! ## Against the reference -/

open Cert.ReferenceIdeal.Read in
/-- Of the reference's second aggregate and of the bias `b2` as a one-row array, the region's result is the reference's
    result: `agg + b2`, the bias broadcast along the rows. -/
theorem result_eq_reference (x0 : FVec Ideal S100000x128 .f32) (x1 : (⟨S2x1600000, .i32⟩ : BufTy).Contents (Elt Ideal))
    (x2 : FVec Ideal S1600000 .f32) (x3 : FVec Ideal S128x128 .f32) (x4 : FVec Ideal S128 .f32) (x5 : FVec Ideal S128x64 .f32)
    (x6 : FVec Ideal S64 .f32) (b : FVec Ideal S1x64 .f32) (hb : ∀ j : S1x64.Idx, b j = x6 (idx_main_v95 j)) :
    result (val_main_v94 (F := Ideal) x0 x1 x2 x3 x4 x5) b = val_main_v97 (F := Ideal) x0 x1 x2 x3 x4 x5 x6 := by
  funext i
  rw [val_main_v97_apply, val_main_v96_apply, val_main_v95_apply]
  show FloatOps.addf (F := Ideal) (val_main_v94 (F := Ideal) x0 x1 x2 x3 x4 x5 i) (b (under i)) = _
  rw [hb]

end Cert.KernelIdeal.BiasOut

end
-- ==== Proof.KernelValue.lean ====
/-
  The kernel program's result, as the reference's function of the arguments.

  The kernel program's buffers are followed boundary by boundary — three stretches of host lines, the first matrix
  product, the first aggregation, bias and clamp, the second matrix product, the second aggregation, the last
  bias — and at each boundary the buffers the rest of the program reads are named by the reference's own stages of
  the seven arguments:

    `row`, `col`, `norm`             the edge list with self loops and the degree normalisation   (host lines, shared)
    `h₁ = x · W1`                    region 0 = the reference's contraction
    `agg₁ = scatter (norm · h₁[row])`  host lines, shared
    `h = max (agg₁ + b1) 0`          region 1 = the reference's broadcast add and clamp
    `h₂ = h · W2`                    region 2 = the reference's contraction
    `agg₂ = scatter (norm · h₂[row])`  host lines, shared (the reference computes `norm` again: the same term)
    `out = agg₂ + b2`                region 3 = the reference's broadcast add

  A region changes only its own three arrays and a stretch of host lines only the buffers it writes, so `row`,
  `col`, `norm` and the arguments not yet used are carried across each boundary unchanged.
-/
import proofs.«105898_j29351806501599_1_alg».proof.Proof.HostStages
import proofs.«105898_j29351806501599_1_alg».proof.Proof.Linear1
import proofs.«105898_j29351806501599_1_alg».proof.Proof.BiasRelu
import proofs.«105898_j29351806501599_1_alg».proof.Proof.Linear2
import proofs.«105898_j29351806501599_1_alg».proof.Proof.BiasOut

set_option maxRecDepth 16384

noncomputable section

namespace Cert.KernelIdeal.ResultValue

open Cert.KernelIdeal Cert.KernelIdeal.Gen Cert.KernelIdeal.HostStages
open Idealize.ShloMosaic Idealize.ShloMosaic.TcCoe Idealize.SL.Sem Idealize.ShloMosaic.StableHlo
open Cert.ReferenceIdeal.Read (val_main_v3 val_main_v6 val_main_v14 val_main_v22 val_main_v38 val_main_v39 val_main_v52
  val_main_v56 val_main_v81 val_main_v94 val_main_v97 idx_main_v53 idx_main_v95)

variable (m : (ℓ : Loc nD τ sig) → Buf (Elt Ideal) ℓ) (ρ : Dev nD → PrngReg) (c : Dev nD)

/-! ## After the first two stretches -/

theorem row2 : W2 m ρ c (Proc.devRef .tc main_v3) = val_main_v3 (F := Ideal) (m ((c : Thread nD τ).loc main_arg1)) :=
  (congrFun (W2_eq m ρ c) _).trans ((degree_keeps (VE m ρ c) 0).trans (row_at_VE m ρ c))
theorem col2 : W2 m ρ c (Proc.devRef .tc main_v6) = val_main_v6 (F := Ideal) (m ((c : Thread nD τ).loc main_arg1)) :=
  (congrFun (W2_eq m ρ c) _).trans ((degree_keeps (VE m ρ c) 1).trans (col_at_VE m ρ c))
theorem weight2 : W2 m ρ c (Proc.devRef .tc main_v14) = val_main_v14 (F := Ideal) (m ((c : Thread nD τ).loc main_arg2)) :=
  (congrFun (W2_eq m ρ c) _).trans ((degree_keeps (VE m ρ c) 2).trans (weight_at_VE m ρ c))
theorem dinv2 : W2 m ρ c (Proc.devRef .tc main_v22) = val_main_v22 (F := Ideal) (m ((c : Thread nD τ).loc main_arg1)) (m ((c : Thread nD τ).loc main_arg2)) :=
  (congrFun (W2_eq m ρ c) _).trans (dinv_of (VE m ρ c) (m ((c : Thread nD τ).loc main_arg1)) (m ((c : Thread nD τ).loc main_arg2)) (col_at_VE m ρ c) (weight_at_VE m ρ c))
theorem arg0_2 : W2 m ρ c (Proc.devRef .tc main_arg0) = (m ((c : Thread nD τ).loc main_arg0)) :=
  (congrFun (W2_eq m ρ c) _).trans ((degree_keeps (VE m ρ c) 3).trans (arg_at_VE m ρ c 0))
theorem arg3_2 : W2 m ρ c (Proc.devRef .tc main_arg3) = (m ((c : Thread nD τ).loc main_arg3)) :=
  (congrFun (W2_eq m ρ c) _).trans ((degree_keeps (VE m ρ c) 6).trans (arg_at_VE m ρ c 3))
theorem arg4_2 : W2 m ρ c (Proc.devRef .tc main_arg4) = (m ((c : Thread nD τ).loc main_arg4)) :=
  (congrFun (W2_eq m ρ c) _).trans ((degree_keeps (VE m ρ c) 7).trans (arg_at_VE m ρ c 4))
theorem arg5_2 : W2 m ρ c (Proc.devRef .tc main_arg5) = (m ((c : Thread nD τ).loc main_arg5)) :=
  (congrFun (W2_eq m ρ c) _).trans ((degree_keeps (VE m ρ c) 8).trans (arg_at_VE m ρ c 5))
theorem arg6_2 : W2 m ρ c (Proc.devRef .tc main_arg6) = (m ((c : Thread nD τ).loc main_arg6)) :=
  (congrFun (W2_eq m ρ c) _).trans ((degree_keeps (VE m ρ c) 9).trans (arg_at_VE m ρ c 6))

/-! ## After the third stretch: region 0's entry -/

theorem norm3 : W3 m ρ c (Proc.devRef .tc main_v38) = val_main_v38 (F := Ideal) (m ((c : Thread nD τ).loc main_arg1)) (m ((c : Thread nD τ).loc main_arg2)) :=
  norm_of (W2 m ρ c) (m ((c : Thread nD τ).loc main_arg1)) (m ((c : Thread nD τ).loc main_arg2)) (row2 m ρ c) (col2 m ρ c) (weight2 m ρ c) (dinv2 m ρ c)
theorem row3 : W3 m ρ c (Proc.devRef .tc main_v3) = val_main_v3 (F := Ideal) (m ((c : Thread nD τ).loc main_arg1)) := (norm_keeps (W2 m ρ c) 0).trans (row2 m ρ c)
theorem col3 : W3 m ρ c (Proc.devRef .tc main_v6) = val_main_v6 (F := Ideal) (m ((c : Thread nD τ).loc main_arg1)) := (norm_keeps (W2 m ρ c) 1).trans (col2 m ρ c)
theorem arg0_3 : W3 m ρ c (Proc.devRef .tc main_arg0) = (m ((c : Thread nD τ).loc main_arg0)) := (norm_keeps (W2 m ρ c) 2).trans (arg0_2 m ρ c)
theorem arg3_3 : W3 m ρ c (Proc.devRef .tc main_arg3) = (m ((c : Thread nD τ).loc main_arg3)) := (norm_keeps (W2 m ρ c) 3).trans (arg3_2 m ρ c)
theorem arg4_3 : W3 m ρ c (Proc.devRef .tc main_arg4) = (m ((c : Thread nD τ).loc main_arg4)) := (norm_keeps (W2 m ρ c) 4).trans (arg4_2 m ρ c)
theorem arg5_3 : W3 m ρ c (Proc.devRef .tc main_arg5) = (m ((c : Thread nD τ).loc main_arg5)) := (norm_keeps (W2 m ρ c) 5).trans (arg5_2 m ρ c)
theorem arg6_3 : W3 m ρ c (Proc.devRef .tc main_arg6) = (m ((c : Thread nD τ).loc main_arg6)) := (norm_keeps (W2 m ρ c) 6).trans (arg6_2 m ρ c)

/-! ## After region 0 -/

/-- `h₁ = x · W1`. -/
theorem lin1_4 : W4 m ρ c (Proc.devRef .tc main_v39) = val_main_v39 (F := Ideal) (m ((c : Thread nD τ).loc main_arg0)) (m ((c : Thread nD τ).loc main_arg3)) := by
  refine (W4_arr m ρ c 2).trans ((Linear1.array_eq (V3 m ρ) c).trans ?_)
  show Linear1.result (W3 m ρ c (Proc.devRef .tc main_arg0)) (W3 m ρ c (Proc.devRef .tc main_arg3)) = _
  rw [arg0_3 m ρ c, arg3_3 m ρ c]
  exact Linear1.result_eq_dot _ _
theorem row4 : W4 m ρ c (Proc.devRef .tc main_v3) = val_main_v3 (F := Ideal) (m ((c : Thread nD τ).loc main_arg1)) := (W4_of_ne m ρ c main_v3 (by decide)).trans (row3 m ρ c)
theorem col4 : W4 m ρ c (Proc.devRef .tc main_v6) = val_main_v6 (F := Ideal) (m ((c : Thread nD τ).loc main_arg1)) := (W4_of_ne m ρ c main_v6 (by decide)).trans (col3 m ρ c)
theorem norm4 : W4 m ρ c (Proc.devRef .tc main_v38) = val_main_v38 (F := Ideal) (m ((c : Thread nD τ).loc main_arg1)) (m ((c : Thread nD τ).loc main_arg2)) := (W4_of_ne m ρ c main_v38 (by decide)).trans (norm3 m ρ c)
theorem arg4_4 : W4 m ρ c (Proc.devRef .tc main_arg4) = (m ((c : Thread nD τ).loc main_arg4)) := (W4_of_ne m ρ c main_arg4 (by decide)).trans (arg4_3 m ρ c)
theorem arg5_4 : W4 m ρ c (Proc.devRef .tc main_arg5) = (m ((c : Thread nD τ).loc main_arg5)) := (W4_of_ne m ρ c main_arg5 (by decide)).trans (arg5_3 m ρ c)
theorem arg6_4 : W4 m ρ c (Proc.devRef .tc main_arg6) = (m ((c : Thread nD τ).loc main_arg6)) := (W4_of_ne m ρ c main_arg6 (by decide)).trans (arg6_3 m ρ c)

/-! ## After the fourth stretch: region 1's entry -/

theorem agg1_5 : W5 m ρ c (Proc.devRef .tc main_v52) = val_main_v52 (F := Ideal) (m ((c : Thread nD τ).loc main_arg0)) (m ((c : Thread nD τ).loc main_arg1)) (m ((c : Thread nD τ).loc main_arg2)) (m ((c : Thread nD τ).loc main_arg3)) :=
  agg1_of (W4 m ρ c) (m ((c : Thread nD τ).loc main_arg0)) (m ((c : Thread nD τ).loc main_arg1)) (m ((c : Thread nD τ).loc main_arg2)) (m ((c : Thread nD τ).loc main_arg3)) (row4 m ρ c) (col4 m ρ c) (norm4 m ρ c) (lin1_4 m ρ c)
theorem bias1_5 (j : S1x128.Idx) : (W5 m ρ c (Proc.devRef .tc main_v53) : (⟨S1x128, .f32⟩ : BufTy).Contents (Elt Ideal)) j = (m ((c : Thread nD τ).loc main_arg4)) (idx_main_v53 j) :=
  bias1_of (W4 m ρ c) (m ((c : Thread nD τ).loc main_arg4)) (arg4_4 m ρ c) j
theorem row5 : W5 m ρ c (Proc.devRef .tc main_v3) = val_main_v3 (F := Ideal) (m ((c : Thread nD τ).loc main_arg1)) := (agg1_keeps (W4 m ρ c) 0).trans (row4 m ρ c)
theorem col5 : W5 m ρ c (Proc.devRef .tc main_v6) = val_main_v6 (F := Ideal) (m ((c : Thread nD τ).loc main_arg1)) := (agg1_keeps (W4 m ρ c) 1).trans (col4 m ρ c)
theorem norm5 : W5 m ρ c (Proc.devRef .tc main_v38) = val_main_v38 (F := Ideal) (m ((c : Thread nD τ).loc main_arg1)) (m ((c : Thread nD τ).loc main_arg2)) := (agg1_keeps (W4 m ρ c) 2).trans (norm4 m ρ c)
theorem arg5_5 : W5 m ρ c (Proc.devRef .tc main_arg5) = (m ((c : Thread nD τ).loc main_arg5)) := (agg1_keeps (W4 m ρ c) 3).trans (arg5_4 m ρ c)
theorem arg6_5 : W5 m ρ c (Proc.devRef .tc main_arg6) = (m ((c : Thread nD τ).loc main_arg6)) := (agg1_keeps (W4 m ρ c) 4).trans (arg6_4 m ρ c)

/-! ## After region 1: region 2's entry -/

/-- `h = max (agg₁ + b1) 0`. -/
theorem hidden6 : W6 m ρ c (Proc.devRef .tc main_v54) = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m ρ c 2).trans ((BiasRelu.array_eq (V5 m ρ) c).trans ?_)
  show BiasRelu.result (W5 m ρ c (Proc.devRef .tc main_v52)) (W5 m ρ c (Proc.devRef .tc main_v53)) = _
  rw [agg1_5 m ρ c]
  exact BiasRelu.result_eq_reference (m ((c : Thread nD τ).loc main_arg0)) (m ((c : Thread nD τ).loc main_arg1)) (m ((c : Thread nD τ).loc main_arg2)) (m ((c : Thread nD τ).loc main_arg3)) (m ((c : Thread nD τ).loc main_arg4)) _ (bias1_5 m ρ c)
theorem row6 : W6 m ρ c (Proc.devRef .tc main_v3) = val_main_v3 (F := Ideal) (m ((c : Thread nD τ).loc main_arg1)) := (W6_of_ne m ρ c main_v3 (by decide)).trans (row5 m ρ c)
theorem col6 : W6 m ρ c (Proc.devRef .tc main_v6) = val_main_v6 (F := Ideal) (m ((c : Thread nD τ).loc main_arg1)) := (W6_of_ne m ρ c main_v6 (by decide)).trans (col5 m ρ c)
theorem norm6 : W6 m ρ c (Proc.devRef .tc main_v38) = val_main_v38 (F := Ideal) (m ((c : Thread nD τ).loc main_arg1)) (m ((c : Thread nD τ).loc main_arg2)) := (W6_of_ne m ρ c main_v38 (by decide)).trans (norm5 m ρ c)
theorem arg5_6 : W6 m ρ c (Proc.devRef .tc main_arg5) = (m ((c : Thread nD τ).loc main_arg5)) := (W6_of_ne m ρ c main_arg5 (by decide)).trans (arg5_5 m ρ c)
theorem arg6_6 : W6 m ρ c (Proc.devRef .tc main_arg6) = (m ((c : Thread nD τ).loc main_arg6)) := (W6_of_ne m ρ c main_arg6 (by decide)).trans (arg6_5 m ρ c)

/-! ## After region 2 -/

/-- `h₂ = h · W2`. -/
theorem lin2_7 : W7 m ρ c (Proc.devRef .tc main_v55) = val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 2).trans ((Linear2.array_eq (V6 m ρ) c).trans ?_)
  show Linear2.result (W6 m ρ c (Proc.devRef .tc main_v54)) (W6 m ρ c (Proc.devRef .tc main_arg5)) = _
  rw [hidden6 m ρ c, arg5_6 m ρ c]
  exact Linear2.result_eq_dot _ _
theorem row7 : W7 m ρ c (Proc.devRef .tc main_v3) = val_main_v3 (F := Ideal) (m ((c : Thread nD τ).loc main_arg1)) := (W7_of_ne m ρ c main_v3 (by decide)).trans (row6 m ρ c)
theorem col7 : W7 m ρ c (Proc.devRef .tc main_v6) = val_main_v6 (F := Ideal) (m ((c : Thread nD τ).loc main_arg1)) := (W7_of_ne m ρ c main_v6 (by decide)).trans (col6 m ρ c)
theorem norm7 : W7 m ρ c (Proc.devRef .tc main_v38) = val_main_v38 (F := Ideal) (m ((c : Thread nD τ).loc main_arg1)) (m ((c : Thread nD τ).loc main_arg2)) := (W7_of_ne m ρ c main_v38 (by decide)).trans (norm6 m ρ c)
theorem arg6_7 : W7 m ρ c (Proc.devRef .tc main_arg6) = (m ((c : Thread nD τ).loc main_arg6)) := (W7_of_ne m ρ c main_arg6 (by decide)).trans (arg6_6 m ρ c)

/-! ## After the last stretch: region 3's entry -/

theorem agg2_8 : W8 m ρ c (Proc.devRef .tc main_v68) = val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  agg2_of (W7 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row7 m ρ c) (col7 m ρ c) (norm7 m ρ c) (lin2_7 m ρ c)
theorem bias2_8 (j : S1x64.Idx) : (W8 m ρ c (Proc.devRef .tc main_v69) : (⟨S1x64, .f32⟩ : BufTy).Contents (Elt Ideal)) j = (m ((c : Thread nD τ).loc main_arg6)) (idx_main_v95 j) :=
  bias2_of (W7 m ρ c) (m ((c : Thread nD τ).loc main_arg6)) (arg6_7 m ρ c) j

/-! ## After region 3: the result -/

/-- THE RESULT: the last boundary's contents of the result buffer are the reference's function of the arguments. -/
theorem result_eq : W9 m ρ c (Proc.devRef .tc main_v70) = val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W9_arr m ρ c 2).trans ((BiasOut.array_eq (V8 m ρ) c).trans ?_)
  show BiasOut.result (W8 m ρ c (Proc.devRef .tc main_v68)) (W8 m ρ c (Proc.devRef .tc main_v69)) = _
  rw [agg2_8 m ρ c]
  exact BiasOut.result_eq_reference (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) _ (bias2_8 m ρ c)

end Cert.KernelIdeal.ResultValue

end
-- ==== Proof.lean ====
/-
  The certificate of a two-layer graph convolution: a Pallas kernel program against its jnp reference.

  Both programs compute, from node features `x`, an edge list, per-edge logits `P_vec` and two layers' weights and
  biases,

      out = Â · max (Â · (x · W1) + b1) 0 · W2 + b2,

  where `Â` is the normalised adjacency with self loops: `Â h = scatter_col (norm · h[row])`,
  `norm = dinv[row] · w · dinv[col]`, `w` the logistic of `P_vec` (ones on the loops), `dinv` the degree to the
  power -1/2. The kernel program runs the two matrix products and the two bias steps (the first with the clamp at
  zero) as grid regions over twenty blocks of 5000 rows, rounding the products' operands to bf16, and everything
  else — the normalisation, the gathers, the scatter-adds — as the same host lines the reference runs.

  At the exact instance a change of float format is the identity, a block of rows times `W` is the rows of `X · W`,
  and a row vector added to every row of a block is the broadcast add; so region by region the kernel program's
  arrays are the reference's stages of the same arguments (`Proof/KernelValue.lean`), and the two results agree
  index by index. Only commutativity and associativity of the extended reals' sum are used, so no entry needs to be
  finite and the precondition is never opened. The ideal pass rewrote nothing in the kernel, so `preserves` asks
  nothing. The three frames are the generated ones (the reference's is its generated run with the result dropped).
-/
import proofs.«105898_j29351806501599_1_alg».proof.Defs
import proofs.«105898_j29351806501599_1_alg».proof.Proof.Gen.Kernel
import proofs.«105898_j29351806501599_1_alg».proof.Proof.Gen.Kernel.Frame
import proofs.«105898_j29351806501599_1_alg».proof.Proof.Gen.KernelIdeal
import proofs.«105898_j29351806501599_1_alg».proof.Proof.Gen.KernelIdeal.Frame
import proofs.«105898_j29351806501599_1_alg».proof.Proof.Gen.ReferenceIdeal
import proofs.«105898_j29351806501599_1_alg».proof.Proof.Gen.Pre_finite_inputs
import proofs.«105898_j29351806501599_1_alg».proof.Proof.Gen.ReferenceIdeal.Run
import proofs.«105898_j29351806501599_1_alg».proof.Proof.Gen.ReferenceIdeal.Read
import proofs.«105898_j29351806501599_1_alg».proof.Proof.KernelRun
import proofs.«105898_j29351806501599_1_alg».proof.Proof.KernelValue

noncomputable section

namespace Cert.Proof

open Idealize.ShloMosaic Idealize.SL.Sem

/-- The kernel program runs and leaves its arguments as launched. -/
theorem frame_kernel : Cert.frame_Kernel :=
  fun m ρ _ => Cert.Kernel.Gen.frame m ρ

/-- So does its idealization. -/
theorem frame_kernelIdeal : Cert.frame_KernelIdeal :=
  fun m ρ _ => Cert.KernelIdeal.Gen.frame m ρ

/-- The reference runs and leaves its arguments as launched: its run, the result forgotten. -/
theorem frame_reference : Cert.frame_ReferenceIdeal :=
  fun m ρ _ => (θ_run Cert.ReferenceIdeal.defs _ _).mono (fun _ h c => (h c).2) (Cert.ReferenceIdeal.Value.run (F := Ideal) m ρ)

/-- From memories that agree on the seven arguments both programs end with the reference's function of the
    arguments in their result buffers: the kernel program's by the region-by-region reading, the reference's by its
    own run. -/
theorem algebraic : Cert.algebraic_KernelIdeal_ReferenceIdeal := by
  intro m ρ m' ρ' _ hagree
  refine ⟨fun c => Cert.ReferenceIdeal.Read.val_main_v97 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.ResultValue.result_eq m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v97_eq, (hagree c).1, (hagree c).2.1, (hagree c).2.2.1, (hagree c).2.2.2.1,
      (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
